-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x512 : Shape := ⟨2, ![4096, 512]⟩
abbrev S4096 : Shape := ⟨1, ![4096]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x2048 .f32) (main_arg8 : FVec F S512 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S2048 .f32) (main_arg5 : FVec F S2048 .f32) (main_arg6 : FVec F S2048 .f32) (main_arg7 : FVec F S512x2048 .f32) (main_arg8 : FVec F S512 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x4096 .f32) (main_arg1 : FVec F S4096x512 .f32) (main_arg2 : FVec F S4096 .f32) (main_arg3 : FVec F S2048x4096 .f32) (main_arg4 : FVec F S2048 .f32) (main_arg5 : FVec F S2048 .f32) (main_arg6 : FVec F S2048 .f32) (main_arg7 : FVec F S512x2048 .f32) (main_arg8 : FVec F S512 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_v13 main_v16
-- ==== Kernel.lean ====
abbrev S8192x4096 : Shape := ⟨2, ![8192, 4096]⟩
abbrev S4096x512 : Shape := ⟨2, ![4096, 512]⟩
abbrev S4096 : Shape := ⟨1, ![4096]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S4096x2048 : Shape := ⟨2, ![4096, 2048]⟩
abbrev S2048x512 : Shape := ⟨2, ![2048, 512]⟩
abbrev S512x4096 : Shape := ⟨2, ![512, 4096]⟩
abbrev S1x4096 : Shape := ⟨2, ![1, 4096]⟩
abbrev S1x2048 : Shape := ⟨2, ![1, 2048]⟩
abbrev S1x512 : Shape := ⟨2, ![1, 512]⟩
abbrev S8192x512 : Shape := ⟨2, ![8192, 512]⟩
abbrev S256x4096 : Shape := ⟨2, ![256, 4096]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x512, .f32⟩
  | .hbm, ⟨2, _⟩ => ⟨S4096, .f32⟩
  | .hbm, ⟨3, _⟩ => ⟨S2048x4096, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S4096x2048, .f32⟩
  | .hbm, ⟨10, _⟩ => ⟨S4096x2048, .bf16⟩
  | .hbm, ⟨11, _⟩ => ⟨S2048x512, .f32⟩
  | .hbm, ⟨12, _⟩ => ⟨S2048x512, .bf16⟩
  | .hbm, ⟨13, _⟩ => ⟨S512x4096, .f32⟩
  | .hbm, ⟨14, _⟩ => ⟨S512x4096, .bf16⟩
  | .hbm, ⟨15, _⟩ => ⟨S1x4096, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x512, .f32⟩
  | .hbm, ⟨20, _⟩ => ⟨S8192x512, .f32⟩
  | .hbm, ⟨21, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S2048x512, .bf16⟩
  | .local _ .vmem, ⟨8, _⟩ => ⟨S1x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S512x4096, .bf16⟩
  | .local _ .vmem, ⟨14, _⟩ => ⟨S256x4096, .f32⟩
  | .local _ .vmem, ⟨15, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S2048x4096_S4096x2048_1_0 : S2048x4096.Transposes [1, 0] S4096x2048
  bitsLt_bf16_f32 : FTy.bits .bf16 < FTy.bits .f32
  transposes_S512x2048_S2048x512_1_0 : S512x2048.Transposes [1, 0] S2048x512
  transposes_S4096x512_S512x4096_1_0 : S4096x512.Transposes [1, 0] S512x4096
  shapeCasts_S4096_S1x4096 : S4096.ShapeCasts S1x4096
  shapeCasts_S2048_S1x2048 : S2048.ShapeCasts S1x2048
  shapeCasts_S512_S1x512 : S512.ShapeCasts S1x512
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S256x4096_S4096x2048_S256x2048_1_0_0_1_n_n_wf : DotDims.WF S256x4096 S4096x2048 S256x2048 [1] [0] [0] [1] [] []
  dot_S256x2048_S2048x512_S256x512_1_0_0_1_n_n_wf : DotDims.WF S256x2048 S2048x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x2048.size a ≤ S4096x2048.size a
  hwx0_2 : ∀ i : grid0.Coords, EltTy.bits .bf16 = 32 ∨ (Rect.block (s := S4096x2048) S4096x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S2048x512.size a
  hwx0_6 : ∀ i : grid0.Coords, EltTy.bits .bf16 = 32 ∨ (Rect.block (s := S2048x512) S2048x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S8192x512.size a
  hwx0_8 : ∀ i : grid0.Coords, EltTy.bits .f32 = 32 ∨ (Rect.block (s := S8192x512) S256x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S8192x512.size a
  hwx1_0 : ∀ i : grid1.Coords, EltTy.bits .f32 = 32 ∨ (Rect.block (s := S8192x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x4096.size a
  hwx1_1 : ∀ i : grid1.Coords, EltTy.bits .bf16 = 32 ∨ (Rect.block (s := S512x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S8192x4096.size a
  hwx1_2 : ∀ i : grid1.Coords, EltTy.bits .f32 = 32 ∨ (Rect.block (s := S8192x4096) S256x4096.size (cc1_transform_2 i) (hinb1_2 i)).WholeWords (EltTy.packing .f32)

variable [Facts₀]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2048x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v11) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x512 : Shape := ⟨2, ![4096, 512]⟩
abbrev S4096 : Shape := ⟨1, ![4096]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S1x4096 : Shape := ⟨2, ![1, 4096]⟩
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S1x512 : Shape := ⟨2, ![1, 512]⟩

abbrev nBuf : Space → Nat
  | .hbm => 61
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x512, .f32⟩
  | .hbm, ⟨2, _⟩ => ⟨S4096, .f32⟩
  | .hbm, ⟨3, _⟩ => ⟨S2048x4096, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S512x2048, .f32⟩
  | .hbm, ⟨8, _⟩ => ⟨S512, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S_, .f32⟩
  | .hbm, ⟨56, _⟩ => ⟨S8192x4096, .f32⟩
  | .hbm, ⟨57, _⟩ => ⟨S8192x4096, .f32⟩
  | .hbm, ⟨58, _⟩ => ⟨S_, .f32⟩
  | .hbm, ⟨59, _⟩ => ⟨S8192x4096, .f32⟩
  | .hbm, ⟨60, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x4096 : S_.BroadcastsInDim S8192x4096 (![] : Fin 0 → Fin S8192x4096.rank)
  dot_S8192x4096_S2048x4096_S8192x2048_1_1_0_0_n_n_wf : DotDims.WF S8192x4096 S2048x4096 S8192x2048 [1] [1] [0] [0] [] []
  dot_S8192x2048_S512x2048_S8192x512_1_1_0_0_n_n_wf : DotDims.WF S8192x2048 S512x2048 S8192x512 [1] [1] [0] [0] [] []
  dot_S8192x512_S4096x512_S8192x4096_1_1_0_0_n_n_wf : DotDims.WF S8192x512 S4096x512 S8192x4096 [1] [1] [0] [0] [] []

variable [Facts₀]

def dot_S8192x4096_S2048x4096_S8192x2048_1_1_0_0_n_n : DotDims S8192x4096 S2048x4096 S8192x2048 where
  lhsContracting := [1]
  rhsContracting := [1]
  lhsNonContracting := [0]
  rhsNonContracting := [0]
  lhsBatch := []
  rhsBatch := []
  wf := dot_S8192x4096_S2048x4096_S8192x2048_1_1_0_0_n_n_wf
def dot_S8192x2048_S512x2048_S8192x512_1_1_0_0_n_n : DotDims S8192x2048 S512x2048 S8192x512 where
  lhsContracting := [1]
  rhsContracting := [1]
  lhsNonContracting := [0]
  rhsNonContracting := [0]
  lhsBatch := []
  rhsBatch := []
  wf := dot_S8192x2048_S512x2048_S8192x512_1_1_0_0_n_n_wf
def dot_S8192x512_S4096x512_S8192x4096_1_1_0_0_n_n : DotDims S8192x512 S4096x512 S8192x4096 where
  lhsContracting := [1]
  rhsContracting := [1]
  lhsNonContracting := [0]
  rhsNonContracting := [0]
  lhsBatch := []
  rhsBatch := []
  wf := dot_S8192x512_S4096x512_S8192x4096_1_1_0_0_n_n_wf

class Facts : Prop extends Facts₀ where

variable [Facts]
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.RowSpec.lean ====
/-
  The mathematics of one batch row, over the extended reals.

  A row `xr` of the input (length D) is centred by `mean`, sent through a first affine layer
  (weights `W1 : H × D`, bias `b1`), normalised over its H entries (mean and variance as sums divided by `n`,
  the deviation times `rsqrt (variance + eps)`, then scale `g` and shift `b`), clamped below at `z`, and sent
  through a second affine layer (weights `W2 : K × H`, bias `b2`): the K logits of the row. The reconstruction of
  the row is the logistic function of the logits against `B : D × K`.

  Every function here is on plain finite families; neither program is mentioned. Both programs compute exactly
  these expressions, operation for operation, so no law of the extended reals beyond `0 + x = x` is needed to
  join them, and none of them asks for finite entries.
-/
import Idealize.ShloMosaic.PureOps.Ideal

noncomputable section

open scoped BigOperators

namespace Cert.RowSpec

open Idealize.ShloMosaic

variable {D H K : ℕ}

/-- The first layer at hidden unit `j`: the centred row against row `j` of the weights, plus the bias. -/
def fc1 (xr mean : Fin D → EReal) (W1 : Fin H → Fin D → EReal) (b1 : Fin H → EReal) (j : Fin H) : EReal :=
  (∑ d : Fin D, (xr d - mean d) * W1 j d) + b1 j

/-- The mean of a row: its sum divided by `n`. -/
def rowMean (n : EReal) (h : Fin H → EReal) : EReal := Ideal.div (∑ j : Fin H, h j) n

/-- The variance of a row: the sum of the squared deviations from the mean, divided by `n`. -/
def rowVar (n : EReal) (h : Fin H → EReal) : EReal :=
  Ideal.div (∑ j : Fin H, (h j - rowMean n h) * (h j - rowMean n h)) n

/-- The normalised row at `j`: deviation times the reciprocal square root of (variance + eps), scaled and shifted. -/
def normed (n eps : EReal) (h g b : Fin H → EReal) (j : Fin H) : EReal :=
  (h j - rowMean n h) * Ideal.rsqrt (rowVar n h + eps) * g j + b j

/-- The second layer at logit `k`: the activations against row `k` of the weights, plus the bias. -/
def fc2 (a : Fin H → EReal) (W2 : Fin K → Fin H → EReal) (b2 : Fin K → EReal) (k : Fin K) : EReal :=
  (∑ j : Fin H, a j * W2 k j) + b2 k

/-- The logits of a row. -/
def logits (n eps z : EReal) (xr mean : Fin D → EReal) (W1 : Fin H → Fin D → EReal) (b1 g b : Fin H → EReal)
    (W2 : Fin K → Fin H → EReal) (b2 : Fin K → EReal) (k : Fin K) : EReal :=
  fc2 (fun j => max (normed n eps (fc1 xr mean W1 b1) g b j) z) W2 b2 k

/-- The reconstruction of a row at `d`: the logistic function of the logits against row `d` of `B`. -/
def recon (q : Fin K → EReal) (B : Fin D → Fin K → EReal) (d : Fin D) : EReal :=
  Ideal.logistic (∑ k : Fin K, q k * B d k)

end Cert.RowSpec

end
-- ==== Proof.KernelRows.lean ====
/-
  The two kernel bodies, read at an index, are the row functions.

  The first body works on a block of 256 rows. Its stored value at `(p, k)` depends on row `p` of the input block
  only: it is `RowSpec.logits` of that row, with the weights read through the transposed layout the kernel is
  handed (`x2 (d, j)` for the first layer, `x6 (j, k)` for the second) and the vectors read off their one-row
  matrices. The proof goes stage by stage in the order of the body: the hidden block (a matrix product into a zero
  accumulator is the plain sum over the contracted axis; a change of float format is the identity), the row mean and
  the row variance (a lane sum kept as a column, divided by the width), the normalised block, the clamp at zero and
  the second product. The second body at `(p, d)` is `RowSpec.recon` of row `p` of its input block.
-/
import proofs.«118280_j44951127720598_1_alg».proof.Proof.Gen.KernelIdeal.Skeleton
import proofs.«118280_j44951127720598_1_alg».proof.Proof.LibMatmulPlain
import proofs.«118280_j44951127720598_1_alg».proof.Proof.LibRowReduce
import proofs.«118280_j44951127720598_1_alg».proof.Proof.LibKeepdims
import proofs.«118280_j44951127720598_1_alg».proof.Proof.RowSpec
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen Idealize.ShloMosaic Idealize.ShloMosaic.ValueIdx

/-- The width 2048 of a hidden row, as the float the programs divide by. -/
abbrev width : EReal := Ideal.ofBits .f32 0x45000000#32
/-- The small constant added to the variance. -/
abbrev eps : EReal := Ideal.ofBits .f32 0x3727C5AC#32
/-- The float zero the activations are clamped at. -/
abbrev fzero : EReal := Ideal.ofBits .f32 0x00000000#32

/-! ## The hidden block -/

/-- The hidden block: the centred input block times the first layer's weights, plus the bias row. -/
def hid (x0 : FVec Ideal S256x4096 .f32) (x1 : FVec Ideal S1x4096 .f32) (x2 : FVec Ideal S4096x2048 .bf16)
    (x3 : FVec Ideal S1x2048 .f32) : FVec Ideal S256x2048 .f32 :=
  addf (matmul dot_S256x4096_S4096x2048_S256x2048_1_0_0_1_n_n none
      (truncf .bf16 (subf x0 (broadcastTo S256x4096 (shapeCast S1x4096 x1 shapeCasts_S1x4096_S1x4096) broadcasts_S1x4096_S256x4096)) bitsLt_bf16_f32)
      (shapeCast S4096x2048 x2 shapeCasts_S4096x2048_S4096x2048) (constant (F := Ideal) S256x2048 .f32 0x00000000#32))
    (broadcastTo S256x2048 (shapeCast S1x2048 x3 shapeCasts_S1x2048_S1x2048) broadcasts_S1x2048_S256x2048)

/-- At `(p, j)` the hidden block is the first layer of row `p`. -/
theorem hid_at (x0 : FVec Ideal S256x4096 .f32) (x1 : FVec Ideal S1x4096 .f32) (x2 : FVec Ideal S4096x2048 .bf16)
    (x3 : FVec Ideal S1x2048 .f32) (p : Fin 256) (j : Fin 2048) :
    hid x0 x1 x2 x3 (ix2 p j)
      = RowSpec.fc1 (fun d : Fin 4096 => x0 (ix2 p d)) (fun d : Fin 4096 => x1 (ix2 (0 : Fin 1) d))
          (fun (j : Fin 2048) (d : Fin 4096) => x2 (ix2 d j)) (fun j : Fin 2048 => x3 (ix2 (0 : Fin 1) j)) j := by
  unfold hid RowSpec.fc1
  rw [shapeCast_self, shapeCast_self, shapeCast_self]
  refine congrArg₂ (· + ·) ?_ (broadcastTo_1b_ab_apply x3 _ p j)
  refine (MatmulPlain.matmul_zero_apply (M := 256) (K := 4096) (N := 2048) none _ _ (ix2 p j)).trans ?_
  refine Finset.sum_congr rfl fun d _ => ?_
  exact congrArg (fun y => (x0 (ix2 p d) - y) * x2 (ix2 d j)) (broadcastTo_1b_ab_apply x1 _ p d)

/-! ## The row mean and the row variance -/

/-- The row means of a block, kept as a column. -/
def muCol (h : FVec Ideal S256x2048 .f32) : FVec Ideal S256x1 .f32 :=
  divf (shapeCast S256x1 (multiReduction .add [1] S256 h 0x00000000#32 reduces_S256x2048_S256 (.inl rfl) rfl) shapeCasts_S256_S256x1)
    (broadcast S256x1 (Scalar.ofBits (F := Ideal) .f32 0x45000000#32))

theorem muCol_at (h : FVec Ideal S256x2048 .f32) (p : Fin 256) :
    muCol h (ix2 p (0 : Fin 1)) = RowSpec.rowMean width (fun j : Fin 2048 => h (ix2 p j)) := by
  unfold muCol RowSpec.rowMean
  refine congrArg (Ideal.div · width) ?_
  refine (Keepdims.shapeCast_a_a1_apply _ _ p (0 : Fin 1)).trans ?_
  exact RowReduce.rowSum_apply (a := 256) (b := 2048) h _ _ _ _ p

/-- A block minus its row means. -/
def dev (h : FVec Ideal S256x2048 .f32) : FVec Ideal S256x2048 .f32 :=
  subf h (broadcastTo S256x2048 (muCol h) broadcasts_S256x1_S256x2048)

theorem dev_at (h : FVec Ideal S256x2048 .f32) (p : Fin 256) (j : Fin 2048) :
    dev h (ix2 p j) = h (ix2 p j) - RowSpec.rowMean width (fun j : Fin 2048 => h (ix2 p j)) := by
  unfold dev
  refine congrArg (h (ix2 p j) - ·) ?_
  exact (Keepdims.broadcastTo_a1_ab_apply (muCol h) _ p j).trans (muCol_at h p)

/-- The row variances of a block, kept as a column. -/
def varCol (h : FVec Ideal S256x2048 .f32) : FVec Ideal S256x1 .f32 :=
  divf (shapeCast S256x1 (multiReduction .add [1] S256 (mulf (dev h) (dev h)) 0x00000000#32 reduces_S256x2048_S256 (.inl rfl) rfl) shapeCasts_S256_S256x1)
    (broadcast S256x1 (Scalar.ofBits (F := Ideal) .f32 0x45000000#32))

theorem varCol_at (h : FVec Ideal S256x2048 .f32) (p : Fin 256) :
    varCol h (ix2 p (0 : Fin 1)) = RowSpec.rowVar width (fun j : Fin 2048 => h (ix2 p j)) := by
  unfold varCol RowSpec.rowVar
  refine congrArg (Ideal.div · width) ?_
  refine (Keepdims.shapeCast_a_a1_apply _ _ p (0 : Fin 1)).trans ?_
  refine (RowReduce.rowSum_apply (a := 256) (b := 2048) (mulf (dev h) (dev h)) _ _ _ _ p).trans ?_
  refine Finset.sum_congr rfl fun j _ => ?_
  exact congrArg₂ (· * ·) (dev_at h p j) (dev_at h p j)

/-! ## The normalised block -/

/-- The normalised block: deviation times the reciprocal root of (variance + eps), times the scale row, plus the shift row. -/
def normBlock (h : FVec Ideal S256x2048 .f32) (x4 x5 : FVec Ideal S1x2048 .f32) : FVec Ideal S256x2048 .f32 :=
  addf (mulf (mulf (dev h)
        (broadcastTo S256x2048 (rsqrt (addf (varCol h) (broadcast S256x1 (Scalar.ofBits (F := Ideal) .f32 0x3727C5AC#32)))) broadcasts_S256x1_S256x2048))
      (broadcastTo S256x2048 (shapeCast S1x2048 x4 shapeCasts_S1x2048_S1x2048) broadcasts_S1x2048_S256x2048))
    (broadcastTo S256x2048 (shapeCast S1x2048 x5 shapeCasts_S1x2048_S1x2048) broadcasts_S1x2048_S256x2048)

theorem normBlock_at (h : FVec Ideal S256x2048 .f32) (x4 x5 : FVec Ideal S1x2048 .f32) (p : Fin 256) (j : Fin 2048) :
    normBlock h x4 x5 (ix2 p j)
      = RowSpec.normed width eps (fun j : Fin 2048 => h (ix2 p j)) (fun j : Fin 2048 => x4 (ix2 (0 : Fin 1) j))
          (fun j : Fin 2048 => x5 (ix2 (0 : Fin 1) j)) j := by
  unfold normBlock RowSpec.normed
  rw [shapeCast_self, shapeCast_self]
  refine congrArg₂ (· + ·) ?_ (broadcastTo_1b_ab_apply x5 _ p j)
  refine congrArg₂ (· * ·) ?_ (broadcastTo_1b_ab_apply x4 _ p j)
  refine congrArg₂ (· * ·) (dev_at h p j) ?_
  refine (Keepdims.broadcastTo_a1_ab_apply _ _ p j).trans ?_
  exact congrArg (fun v => Ideal.rsqrt (v + eps)) (varCol_at h p)

/-- The body's first payload is the normalised hidden block. -/
theorem pay2_eq (x0 : FVec Ideal S256x4096 .f32) (x1 : FVec Ideal S1x4096 .f32) (x2 : FVec Ideal S4096x2048 .bf16)
    (x3 x4 x5 : FVec Ideal S1x2048 .f32) :
    k0_pay2 (F := Ideal) x0 x1 x2 x3 x4 x5 = normBlock (hid x0 x1 x2 x3) x4 x5 := rfl

/-! ## The clamp and the second product -/

/-- The stored value: the clamped block times the second layer's weights, plus the bias row. -/
theorem pay1_at (a : FVec Ideal S256x2048 .f32) (x6 : FVec Ideal S2048x512 .bf16) (x7 : FVec Ideal S1x512 .f32)
    (p : Fin 256) (k : Fin 512) :
    k0_pay1 (F := Ideal) a (k0_pay3 (F := Ideal)) x6 x7 (ix2 p k)
      = RowSpec.fc2 (fun j : Fin 2048 => max (a (ix2 p j)) fzero) (fun (k : Fin 512) (j : Fin 2048) => x6 (ix2 j k))
          (fun k : Fin 512 => x7 (ix2 (0 : Fin 1) k)) k := by
  unfold k0_pay1 k0_pay3 RowSpec.fc2
  dsimp only
  rw [shapeCast_self, shapeCast_self]
  refine congrArg₂ (· + ·) ?_ (broadcastTo_1b_ab_apply x7 _ p k)
  exact MatmulPlain.matmul_zero_apply (M := 256) (K := 2048) (N := 512) none _ _ (ix2 p k)

/-- THE FIRST BODY AT AN INDEX: the logits of row `p` of the input block. -/
theorem logits_at (x0 : FVec Ideal S256x4096 .f32) (x1 : FVec Ideal S1x4096 .f32) (x2 : FVec Ideal S4096x2048 .bf16)
    (x3 x4 x5 : FVec Ideal S1x2048 .f32) (x6 : FVec Ideal S2048x512 .bf16) (x7 : FVec Ideal S1x512 .f32)
    (p : Fin 256) (k : Fin 512) :
    k0_pay1 (F := Ideal) (k0_pay2 (F := Ideal) x0 x1 x2 x3 x4 x5) (k0_pay3 (F := Ideal)) x6 x7 (ix2 p k)
      = RowSpec.logits width eps fzero (fun d : Fin 4096 => x0 (ix2 p d)) (fun d : Fin 4096 => x1 (ix2 (0 : Fin 1) d))
          (fun (j : Fin 2048) (d : Fin 4096) => x2 (ix2 d j)) (fun j : Fin 2048 => x3 (ix2 (0 : Fin 1) j))
          (fun j : Fin 2048 => x4 (ix2 (0 : Fin 1) j)) (fun j : Fin 2048 => x5 (ix2 (0 : Fin 1) j))
          (fun (k : Fin 512) (j : Fin 2048) => x6 (ix2 j k)) (fun k : Fin 512 => x7 (ix2 (0 : Fin 1) k)) k := by
  rw [pay2_eq]
  refine (pay1_at _ x6 x7 p k).trans ?_
  unfold RowSpec.logits
  refine congrArg (fun a => RowSpec.fc2 a _ _ k) (funext fun j => ?_)
  refine congrArg (max · fzero) ?_
  refine (normBlock_at _ x4 x5 p j).trans ?_
  exact congrArg (fun h => RowSpec.normed width eps h _ _ j) (funext fun j' => hid_at x0 x1 x2 x3 p j')

/-! ## The second body -/

/-- THE SECOND BODY AT AN INDEX: the reconstruction of row `p` of its input block. -/
theorem recon_at (y0 : FVec Ideal S256x512 .f32) (y1 : FVec Ideal S512x4096 .bf16) (p : Fin 256) (d : Fin 4096) :
    k1_pay1 (F := Ideal) y0 y1 (ix2 p d)
      = RowSpec.recon (fun k : Fin 512 => y0 (ix2 p k)) (fun (d : Fin 4096) (k : Fin 512) => y1 (ix2 k d)) d := by
  unfold k1_pay1 RowSpec.recon
  dsimp only
  rw [shapeCast_self, shapeCast_self]
  exact congrArg Ideal.logistic (MatmulPlain.matmul_zero_apply (M := 256) (K := 512) (N := 4096) none _ _ (ix2 p d))

end Cert.KernelIdeal.Rows

end
-- ==== Proof.RefRows.lean ====
/-
  The reference's stages, read at an index, are the row functions.

  The reference works on the whole batch at once, but every stage at `(b, ·)` depends on row `b` of the input only.
  Stage by stage, in the order of the program: the first layer at `(b, j)` is `RowSpec.fc1` of row `b` (the
  contraction of a row against a row of the weights is the plain sum); the row mean and the row variance are host
  sums from a zero initial value (`0 + s = s`) divided by the width; the normalised value, the clamp at zero (the
  outlined `relu`), the second layer; and the last five operations — negate, exponential, add one, divide one by it
  — are, at every extended real, the logistic function by its definition. So the logits at `(b, k)` are
  `RowSpec.logits` of row `b`, and the reconstruction at `(b, d)` is `RowSpec.recon` of the logits of row `b`.
-/
import proofs.«118280_j44951127720598_1_alg».proof.Proof.Gen.ReferenceIdeal.Read
import proofs.«118280_j44951127720598_1_alg».proof.Proof.RowSpec
import Idealize.ShloMosaic.Lib.ValueIdx
import Idealize.ShloMosaic.PureOps.Ideal.Laws
import Idealize.ShloMosaic.PureOps.IdealRules

noncomputable section

open scoped BigOperators

namespace Cert.ReferenceIdeal.Rows

open Cert.ReferenceIdeal Cert.ReferenceIdeal.Read Idealize.ShloMosaic Idealize.ShloMosaic.ValueIdx

/-- Two indices of a shape of rank one or two are equal when their coordinates are, literally. -/
macro "idx_rfl" : tactic =>
  `(tactic| exact funext fun a => Fin.ext (by
      first
        | (match a with | ⟨0, _⟩ => rfl | ⟨1, _⟩ => rfl)
        | (match a with | ⟨0, _⟩ => rfl)))

abbrev width : EReal := Ideal.ofBits .f32 0x45000000#32
abbrev eps : EReal := Ideal.ofBits .f32 0x3727C5AC#32
abbrev fzero : EReal := Ideal.ofBits .f32 0x00000000#32

section
variable (a0 : FVec Ideal S8192x4096 .f32) (a1 : FVec Ideal S4096x512 .f32) (a2 : FVec Ideal S4096 .f32)
  (a3 : FVec Ideal S2048x4096 .f32) (a4 a5 a6 : FVec Ideal S2048 .f32) (a7 : FVec Ideal S512x2048 .f32)
  (a8 : FVec Ideal S512 .f32)

/-! ## The first layer -/

theorem hid_at (b : Fin 8192) (j : Fin 2048) :
    val_main_v6 (F := Ideal) a0 a2 a3 a4 (ix2 b j)
      = RowSpec.fc1 (fun d : Fin 4096 => a0 (ix2 b d)) (fun d : Fin 4096 => a2 (ix1 d))
          (fun (j : Fin 2048) (d : Fin 4096) => a3 (ix2 j d)) (fun j : Fin 2048 => a4 (ix1 j)) j := by
  rw [val_main_v6_apply, val_main_v3_apply, val_main_v5_apply, val_main_v4_apply]
  unfold RowSpec.fc1
  show (∑ d : Fin 4096, _) + _ = (∑ d : Fin 4096, _) + _
  refine congrArg₂ (· + ·) (Finset.sum_congr rfl fun d _ => ?_) (congrArg a4 (by idx_rfl))
  rw [val_main_v2_apply, val_main_v1_apply, val_main_v0_apply]
  show (a0 _ - a2 _) * a3 _ = (a0 _ - a2 _) * a3 _
  have e0 : lidx_main_v3 (ix2 b j) d = ix2 b d := by idx_rfl
  have e2 : idx_main_v0 (idx_main_v1 (lidx_main_v3 (ix2 b j) d)) = ix1 d := by idx_rfl
  have e3 : ridx_main_v3 (ix2 b j) d = ix2 j d := by idx_rfl
  rw [e0, e2, e3]

/-! ## The row mean and the row variance -/

theorem mean_at (b : Fin 8192) (u : Fin 1) :
    val_main_v10 (F := Ideal) a0 a2 a3 a4 (ix2 b u)
      = RowSpec.rowMean width (fun j : Fin 2048 => val_main_v6 (F := Ideal) a0 a2 a3 a4 (ix2 b j)) := by
  rw [val_main_v10_apply, val_main_v8_apply, val_main_v7_apply, val_main_v9_apply, val_main_cst_apply,
    val_main_cst_0_apply]
  unfold RowSpec.rowMean
  show Ideal.div (Ideal.ofBits .f32 0x00000000#32 + ∑ k : Fin 2048, _) width = _
  rw [Ideal.ofBits_zero_f32, zero_add]
  exact congrArg (Ideal.div · width) (Finset.sum_congr rfl fun k _ =>
    congrArg (val_main_v6 (F := Ideal) a0 a2 a3 a4) (by idx_rfl))

theorem dev_at (b : Fin 8192) (j : Fin 2048) :
    val_main_v12 (F := Ideal) a0 a2 a3 a4 (ix2 b j)
      = val_main_v6 (F := Ideal) a0 a2 a3 a4 (ix2 b j)
        - RowSpec.rowMean width (fun j : Fin 2048 => val_main_v6 (F := Ideal) a0 a2 a3 a4 (ix2 b j)) := by
  rw [val_main_v12_apply, val_main_v11_apply]
  have e : idx_main_v11 (ix2 b j) = ix2 b (0 : Fin 1) := by idx_rfl
  rw [e, mean_at]
  rfl

theorem dev'_at (b : Fin 8192) (j : Fin 2048) :
    val_main_v19 (F := Ideal) a0 a2 a3 a4 (ix2 b j)
      = val_main_v6 (F := Ideal) a0 a2 a3 a4 (ix2 b j)
        - RowSpec.rowMean width (fun j : Fin 2048 => val_main_v6 (F := Ideal) a0 a2 a3 a4 (ix2 b j)) := by
  rw [val_main_v19_apply, val_main_v18_apply]
  have e : idx_main_v18 (ix2 b j) = ix2 b (0 : Fin 1) := by idx_rfl
  rw [e, mean_at]
  rfl

theorem var_at (b : Fin 8192) (u : Fin 1) :
    val_main_v17 (F := Ideal) a0 a2 a3 a4 (ix2 b u)
      = RowSpec.rowVar width (fun j : Fin 2048 => val_main_v6 (F := Ideal) a0 a2 a3 a4 (ix2 b j)) := by
  rw [val_main_v17_apply, val_main_v15_apply, val_main_v14_apply, val_main_v16_apply, val_main_cst_1_apply,
    val_main_cst_2_apply]
  unfold RowSpec.rowVar
  show Ideal.div (Ideal.ofBits .f32 0x00000000#32 + ∑ k : Fin 2048, _) width = _
  rw [Ideal.ofBits_zero_f32, zero_add]
  refine congrArg (Ideal.div · width) (Finset.sum_congr rfl fun k _ => ?_)
  have e : idx_main_v14 (idx_main_v15 (ix2 b u)) k = ix2 b k := by idx_rfl
  rw [e, val_main_v13_apply, dev_at]
  rfl

/-! ## The normalised value -/

theorem normed_at (b : Fin 8192) (j : Fin 2048) :
    val_main_v30 (F := Ideal) a0 a2 a3 a4 a5 a6 (ix2 b j)
      = RowSpec.normed width eps (fun j : Fin 2048 => val_main_v6 (F := Ideal) a0 a2 a3 a4 (ix2 b j))
          (fun j : Fin 2048 => a5 (ix1 j)) (fun j : Fin 2048 => a6 (ix1 j)) j := by
  rw [val_main_v30_apply, val_main_v27_apply, val_main_v24_apply, val_main_v29_apply, val_main_v28_apply,
    val_main_v26_apply, val_main_v25_apply, val_main_v23_apply, val_main_v22_apply, val_main_v21_apply,
    val_main_v20_apply, val_main_cst_3_apply, dev'_at]
  have e : idx_main_v23 (ix2 b j) = ix2 b (0 : Fin 1) := by idx_rfl
  rw [e, var_at]
  unfold RowSpec.normed
  show _ * Ideal.rsqrt (_ + eps) * a5 _ + a6 _ = _ * Ideal.rsqrt (_ + eps) * a5 _ + a6 _
  have e5 : idx_main_v25 (idx_main_v26 (ix2 b j)) = ix1 j := by idx_rfl
  have e6 : idx_main_v28 (idx_main_v29 (ix2 b j)) = ix1 j := by idx_rfl
  rw [e5, e6]

/-! ## The logits -/

/-- THE LOGITS AT AN INDEX: `RowSpec.logits` of row `b` of the input. -/
theorem logits_at (b : Fin 8192) (k : Fin 512) :
    val_main_v35 (F := Ideal) a0 a2 a3 a4 a5 a6 a7 a8 (ix2 b k)
      = RowSpec.logits width eps fzero (fun d : Fin 4096 => a0 (ix2 b d)) (fun d : Fin 4096 => a2 (ix1 d))
          (fun (j : Fin 2048) (d : Fin 4096) => a3 (ix2 j d)) (fun j : Fin 2048 => a4 (ix1 j))
          (fun j : Fin 2048 => a5 (ix1 j)) (fun j : Fin 2048 => a6 (ix1 j))
          (fun (k : Fin 512) (j : Fin 2048) => a7 (ix2 k j)) (fun k : Fin 512 => a8 (ix1 k)) k := by
  rw [val_main_v35_apply, val_main_v32_apply, val_main_v34_apply, val_main_v33_apply]
  unfold RowSpec.logits RowSpec.fc2
  show (∑ j : Fin 2048, _) + _ = (∑ j : Fin 2048, _) + _
  refine congrArg₂ (· + ·) (Finset.sum_congr rfl fun j _ => ?_) (congrArg a8 (by idx_rfl))
  have el : lidx_main_v32 (ix2 b k) j = ix2 b j := by idx_rfl
  have er : ridx_main_v32 (ix2 b k) j = ix2 k j := by idx_rfl
  rw [el, er, val_main_v31_apply, val_main_call0_v0_apply, val_main_call0_cst_apply, normed_at]
  show max _ fzero * _ = max _ fzero * _
  refine congrArg (fun h => max (RowSpec.normed width eps h _ _ j) fzero * a7 (ix2 k j)) ?_
  exact funext fun j' => hid_at a0 a2 a3 a4 b j'

/-! ## The reconstruction -/

/-- THE RECONSTRUCTION AT AN INDEX: `RowSpec.recon` of the logits of row `b`. -/
theorem recon_at (b : Fin 8192) (d : Fin 4096) :
    val_main_v42 (F := Ideal) a0 a1 a2 a3 a4 a5 a6 a7 a8 (ix2 b d)
      = RowSpec.recon (fun k : Fin 512 => val_main_v35 (F := Ideal) a0 a2 a3 a4 a5 a6 a7 a8 (ix2 b k))
          (fun (d : Fin 4096) (k : Fin 512) => a1 (ix2 d k)) d := by
  rw [val_main_v42_apply, val_main_v41_apply, val_main_cst_5_apply, val_main_v40_apply, val_main_v39_apply,
    val_main_cst_4_apply, val_main_v38_apply, val_main_v37_apply, val_main_v36_apply]
  unfold RowSpec.recon Ideal.logistic
  show Ideal.div (Ideal.ofBits .f32 0x3F800000#32) (Ideal.ofBits .f32 0x3F800000#32 + Ideal.exp (-(∑ k : Fin 512, _)))
    = Ideal.div 1 (1 + Ideal.exp (-(∑ k : Fin 512, _)))
  have one : Ideal.ofBits .f32 0x3F800000#32 = 1 := IdealRules.sign_bit.ideal_onePat .f32
  rw [one]
  refine congrArg (fun s => Ideal.div 1 (1 + Ideal.exp (-s))) (Finset.sum_congr rfl fun k _ => ?_)
  have el : lidx_main_v36 (ix2 b d) k = ix2 b k := by idx_rfl
  have er : ridx_main_v36 (ix2 b d) k = ix2 d k := by idx_rfl
  rw [el, er]

end

end Cert.ReferenceIdeal.Rows

end
-- ==== Proof.Bridge.lean ====
/-
  A block entry of a kernel body is the reference's stage at the array index it is written to.

  Both sides were read as the same row function (`RowSpec.logits`, `RowSpec.recon`); what is left is to match
  the arguments. Stated over variables: `x0 … x7` are the blocks the first body loads, `a0 … a8` the arrays the
  reference is applied to, `(p, k)` an entry of the output block and `i` the array index it lands on. The
  hypotheses say how the blocks read the arrays — row `p` of the input block is row `i 0` of the input, the
  weights are the transposes, the vectors are the one-row matrices' rows — and `i` is `(b, k)`.
-/
import proofs.«118280_j44951127720598_1_alg».proof.Proof.KernelRows
import proofs.«118280_j44951127720598_1_alg».proof.Proof.RefRows

noncomputable section

namespace Cert.Bridge

open Idealize.ShloMosaic Idealize.ShloMosaic.ValueIdx
open Cert.KernelIdeal.Gen Cert.ReferenceIdeal.Read

/-- An entry of the first body's output block is the reference's logits at the index it lands on. -/
theorem block_logits
    (x0 : FVec Ideal Cert.KernelIdeal.S256x4096 .f32) (x1 : FVec Ideal Cert.KernelIdeal.S1x4096 .f32)
    (x2 : FVec Ideal Cert.KernelIdeal.S4096x2048 .bf16) (x3 x4 x5 : FVec Ideal Cert.KernelIdeal.S1x2048 .f32)
    (x6 : FVec Ideal Cert.KernelIdeal.S2048x512 .bf16) (x7 : FVec Ideal Cert.KernelIdeal.S1x512 .f32)
    (a0 : FVec Ideal Cert.ReferenceIdeal.S8192x4096 .f32) (a2 : FVec Ideal Cert.ReferenceIdeal.S4096 .f32)
    (a3 : FVec Ideal Cert.ReferenceIdeal.S2048x4096 .f32) (a4 a5 a6 : FVec Ideal Cert.ReferenceIdeal.S2048 .f32)
    (a7 : FVec Ideal Cert.ReferenceIdeal.S512x2048 .f32) (a8 : FVec Ideal Cert.ReferenceIdeal.S512 .f32)
    (p : Fin 256) (k : Fin 512) (b : Fin 8192) (i : Cert.ReferenceIdeal.S8192x512.Idx)
    (h0 : ∀ d : Fin 4096, x0 (ix2 p d) = a0 (ix2 b d))
    (h1 : ∀ d : Fin 4096, x1 (ix2 (0 : Fin 1) d) = a2 (ix1 d))
    (h2 : ∀ (j : Fin 2048) (d : Fin 4096), x2 (ix2 d j) = a3 (ix2 j d))
    (h3 : ∀ j : Fin 2048, x3 (ix2 (0 : Fin 1) j) = a4 (ix1 j))
    (h4 : ∀ j : Fin 2048, x4 (ix2 (0 : Fin 1) j) = a5 (ix1 j))
    (h5 : ∀ j : Fin 2048, x5 (ix2 (0 : Fin 1) j) = a6 (ix1 j))
    (h6 : ∀ (k : Fin 512) (j : Fin 2048), x6 (ix2 j k) = a7 (ix2 k j))
    (h7 : ∀ k : Fin 512, x7 (ix2 (0 : Fin 1) k) = a8 (ix1 k))
    (hb : (i 0).val = b.val) (hk : (i 1).val = k.val) :
    k0_pay1 (F := Ideal) (k0_pay2 (F := Ideal) x0 x1 x2 x3 x4 x5) (k0_pay3 (F := Ideal)) x6 x7 (ix2 p k)
      = val_main_v35 (F := Ideal) a0 a2 a3 a4 a5 a6 a7 a8 i := by
  have hi : i = ix2 b k := funext fun a => Fin.ext (by
    match a with
    | ⟨0, _⟩ => exact hb
    | ⟨1, _⟩ => exact hk)
  rw [hi, Cert.KernelIdeal.Rows.logits_at, Cert.ReferenceIdeal.Rows.logits_at]
  simp only [h0, h1, h2, h3, h4, h5, h6, h7]

/-- An entry of the second body's output block is the reference's reconstruction at the index it lands on, when
    the block it loads holds the reference's logits of the same rows. -/
theorem block_recon
    (y0 : FVec Ideal Cert.KernelIdeal.S256x512 .f32) (y1 : FVec Ideal Cert.KernelIdeal.S512x4096 .bf16)
    (a0 : FVec Ideal Cert.ReferenceIdeal.S8192x4096 .f32) (a1 : FVec Ideal Cert.ReferenceIdeal.S4096x512 .f32)
    (a2 : FVec Ideal Cert.ReferenceIdeal.S4096 .f32)
    (a3 : FVec Ideal Cert.ReferenceIdeal.S2048x4096 .f32) (a4 a5 a6 : FVec Ideal Cert.ReferenceIdeal.S2048 .f32)
    (a7 : FVec Ideal Cert.ReferenceIdeal.S512x2048 .f32) (a8 : FVec Ideal Cert.ReferenceIdeal.S512 .f32)
    (p : Fin 256) (d : Fin 4096) (b : Fin 8192) (i : Cert.ReferenceIdeal.S8192x4096.Idx)
    (h0 : ∀ k : Fin 512, y0 (ix2 p k) = val_main_v35 (F := Ideal) a0 a2 a3 a4 a5 a6 a7 a8 (ix2 b k))
    (h1 : ∀ (d : Fin 4096) (k : Fin 512), y1 (ix2 k d) = a1 (ix2 d k))
    (hb : (i 0).val = b.val) (hd : (i 1).val = d.val) :
    k1_pay1 (F := Ideal) y0 y1 (ix2 p d) = val_main_v42 (F := Ideal) a0 a1 a2 a3 a4 a5 a6 a7 a8 i := by
  have hi : i = ix2 b d := funext fun a => Fin.ext (by
    match a with
    | ⟨0, _⟩ => exact hb
    | ⟨1, _⟩ => exact hd)
  rw [hi, Cert.KernelIdeal.Rows.recon_at, Cert.ReferenceIdeal.Rows.recon_at]
  simp only [h0, h1]

end Cert.Bridge

end
-- ==== Proof.Blocks.lean ====
/-
  From blocks to arrays, in both regions.

  Region 0 walks the batch in 32 blocks of 256 rows. At point `t` its input window 0 holds rows `256 t … 256 t + 255`
  of the input; the other seven windows hold whole arrays that the host operations before the region made from the
  arguments (the three weight matrices transposed — the change of float format is the identity —, the four vectors
  and the mean as one-row matrices); and the block it writes back is rows `256 t … 256 t + 255` of the logits. By
  `Bridge.block_logits` every entry of that block is the reference's logits at the index it lands on, the 32 blocks
  cover the array (row `r` is in block `r / 256`), so the logits array after region 0 IS the reference's.

  Region 1 walks the same 32 row blocks: window 0 holds rows of the logits array as region 0 left it, window 1 the
  transposed decoder matrix, and by `Bridge.block_recon` the reconstruction array after region 1 is the reference's.

  The last section reads the two result buffers at the end of @main (`W3`): the reconstruction is region 1's
  output, the logits array is an input of region 1 and so is still what region 0 left.
-/
import proofs.«118280_j44951127720598_1_alg».proof.Proof.Gen.KernelIdeal.Frame
import proofs.«118280_j44951127720598_1_alg».proof.Proof.Bridge
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.Tactic Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the two regions end at: the reference's stages of the arguments -/

/-- The reference's logits of the launch arguments. -/
def Q (c : Dev nD) : FVec Ideal S8192x512 .f32 :=
  Cert.ReferenceIdeal.Read.val_main_v35 (F := Ideal) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The reference's reconstruction of the launch arguments. -/
def Z (c : Dev nD) : FVec Ideal S8192x4096 .f32 :=
  Cert.ReferenceIdeal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-! ## The index maps, decided over the two grids -/

/-- Region 0: the input block and the output block move with the point along the rows; every other window stays. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Region 1: the same. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## Region 0: what each window's block reads, for any entry contents `V` -/

section Reads0
variable (V : (c : Dev nD) → (b : Ref sig .tc) → Buf (Elt Ideal) ((c : Thread nD τ).loc b))

/-- The input block at point `t` is rows `256 t + p` of the input array. -/
theorem read0_0 (c : Dev nD) (t : Fin cfg0.N) (p : Fin 256) (d : Fin 4096) (b : Fin 8192) (hb : b.val = t.val * 256 + p.val) :
    (iblk0 V c 0 t : FVec Ideal S256x4096 .f32) (ix2 p d) = (V c main_arg0 : FVec Ideal S8192x4096 .f32) (ix2 b d) := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 256 + 1 * p.val = b.val; rw [e0, hb]; omega
  | ⟨1, _⟩ => show win0_0.index t (1 : Fin 2) * 4096 + 1 * d.val = d.val; rw [e1]; omega

theorem read0_1 (c : Dev nD) (t : Fin cfg0.N) (u : Fin 1) (d : Fin 4096) :
    (iblk0 V c 1 t : FVec Ideal S1x4096 .f32) (ix2 u d) = (V c main_v6 : FVec Ideal S1x4096 .f32) (ix2 u d) := by
  obtain ⟨-, -, e0, e1, -⟩ := idx0 t
  unfold iblk0
  rw [View.read_apply]
  show V c main_v6 _ = V c main_v6 _
  refine congrArg (V c main_v6) (funext fun a => Fin.ext ?_)
  match a with
  | ⟨0, _⟩ => show win0_1.index t (0 : Fin 2) * 1 + 1 * u.val = u.val; rw [e0]; omega
  | ⟨1, _⟩ => show win0_1.index t (1 : Fin 2) * 4096 + 1 * d.val = d.val; rw [e1]; omega

theorem read0_2 (c : Dev nD) (t : Fin cfg0.N) (d : Fin 4096) (j : Fin 2048) :
    (iblk0 V c 2 t : FVec Ideal S4096x2048 .bf16) (ix2 d j) = (V c main_v1 : FVec Ideal S4096x2048 .bf16) (ix2 d j) := by
  obtain ⟨-, -, -, -, e0, e1, -⟩ := idx0 t
  unfold iblk0
  rw [View.read_apply]
  show V c main_v1 _ = V c main_v1 _
  refine congrArg (V c main_v1) (funext fun a => Fin.ext ?_)
  match a with
  | ⟨0, _⟩ => show win0_2.index t (0 : Fin 2) * 4096 + 1 * d.val = d.val; rw [e0]; omega
  | ⟨1, _⟩ => show win0_2.index t (1 : Fin 2) * 2048 + 1 * j.val = j.val; rw [e1]; omega

theorem read0_3 (c : Dev nD) (t : Fin cfg0.N) (u : Fin 1) (j : Fin 2048) :
    (iblk0 V c 3 t : FVec Ideal S1x2048 .f32) (ix2 u j) = (V c main_v7 : FVec Ideal S1x2048 .f32) (ix2 u j) := by
  obtain ⟨-, -, -, -, -, -, e0, e1, -⟩ := idx0 t
  unfold iblk0
  rw [View.read_apply]
  show V c main_v7 _ = V c main_v7 _
  refine congrArg (V c main_v7) (funext fun a => Fin.ext ?_)
  match a with
  | ⟨0, _⟩ => show win0_3.index t (0 : Fin 2) * 1 + 1 * u.val = u.val; rw [e0]; omega
  | ⟨1, _⟩ => show win0_3.index t (1 : Fin 2) * 2048 + 1 * j.val = j.val; rw [e1]; omega

theorem read0_4 (c : Dev nD) (t : Fin cfg0.N) (u : Fin 1) (j : Fin 2048) :
    (iblk0 V c 4 t : FVec Ideal S1x2048 .f32) (ix2 u j) = (V c main_v8 : FVec Ideal S1x2048 .f32) (ix2 u j) := by
  obtain ⟨-, -, -, -, -, -, -, -, e0, e1, -⟩ := idx0 t
  unfold iblk0
  rw [View.read_apply]
  show V c main_v8 _ = V c main_v8 _
  refine congrArg (V c main_v8) (funext fun a => Fin.ext ?_)
  match a with
  | ⟨0, _⟩ => show win0_4.index t (0 : Fin 2) * 1 + 1 * u.val = u.val; rw [e0]; omega
  | ⟨1, _⟩ => show win0_4.index t (1 : Fin 2) * 2048 + 1 * j.val = j.val; rw [e1]; omega

theorem read0_5 (c : Dev nD) (t : Fin cfg0.N) (u : Fin 1) (j : Fin 2048) :
    (iblk0 V c 5 t : FVec Ideal S1x2048 .f32) (ix2 u j) = (V c main_v9 : FVec Ideal S1x2048 .f32) (ix2 u j) := by
  obtain ⟨-, -, -, -, -, -, -, -, -, -, e0, e1, -⟩ := idx0 t
  unfold iblk0
  rw [View.read_apply]
  show V c main_v9 _ = V c main_v9 _
  refine congrArg (V c main_v9) (funext fun a => Fin.ext ?_)
  match a with
  | ⟨0, _⟩ => show win0_5.index t (0 : Fin 2) * 1 + 1 * u.val = u.val; rw [e0]; omega
  | ⟨1, _⟩ => show win0_5.index t (1 : Fin 2) * 2048 + 1 * j.val = j.val; rw [e1]; omega

theorem read0_6 (c : Dev nD) (t : Fin cfg0.N) (j : Fin 2048) (k : Fin 512) :
    (iblk0 V c 6 t : FVec Ideal S2048x512 .bf16) (ix2 j k) = (V c main_v3 : FVec Ideal S2048x512 .bf16) (ix2 j k) := by
  obtain ⟨-, -, -, -, -, -, -, -, -, -, -, -, e0, e1, -⟩ := idx0 t
  unfold iblk0
  rw [View.read_apply]
  show V c main_v3 _ = V c main_v3 _
  refine congrArg (V c main_v3) (funext fun a => Fin.ext ?_)
  match a with
  | ⟨0, _⟩ => show win0_6.index t (0 : Fin 2) * 2048 + 1 * j.val = j.val; rw [e0]; omega
  | ⟨1, _⟩ => show win0_6.index t (1 : Fin 2) * 512 + 1 * k.val = k.val; rw [e1]; omega

theorem read0_7 (c : Dev nD) (t : Fin cfg0.N) (u : Fin 1) (k : Fin 512) :
    (iblk0 V c 7 t : FVec Ideal S1x512 .f32) (ix2 u k) = (V c main_v10 : FVec Ideal S1x512 .f32) (ix2 u k) := by
  obtain ⟨-, -, -, -, -, -, -, -, -, -, -, -, -, -, e0, e1, -⟩ := idx0 t
  unfold iblk0
  rw [View.read_apply]
  show V c main_v10 _ = V c main_v10 _
  refine congrArg (V c main_v10) (funext fun a => Fin.ext ?_)
  match a with
  | ⟨0, _⟩ => show win0_7.index t (0 : Fin 2) * 1 + 1 * u.val = u.val; rw [e0]; omega
  | ⟨1, _⟩ => show win0_7.index t (1 : Fin 2) * 512 + 1 * k.val = k.val; rw [e1]; omega

end Reads0

/-! ## The host operations before region 0, read at an index -/

theorem host_w1 (c : Dev nD) (d : Fin 4096) (j : Fin 2048) :
    (V1 m ρ c main_v1 : FVec Ideal S4096x2048 .bf16) (ix2 d j) = (m ((c : Thread nD τ).loc main_arg3) : FVec Ideal S2048x4096 .f32) (ix2 j d) := by
  have e : @Eq (FVec Ideal S4096x2048 .bf16) (V1 m ρ c main_v1)
      (truncf (F := Ideal) .bf16 (transpose S4096x2048 [1, 0] (m ((c : Thread nD τ).loc main_arg3) : FVec Ideal S2048x4096 .f32) transposes_S2048x4096_S4096x2048_1_0) bitsLt_bf16_f32) := by
    dsimp only [V1, W1, hostOps0]; after_results
  rw [e]
  exact transpose_ix2_apply _ _ d j

theorem host_w2 (c : Dev nD) (j : Fin 2048) (k : Fin 512) :
    (V1 m ρ c main_v3 : FVec Ideal S2048x512 .bf16) (ix2 j k) = (m ((c : Thread nD τ).loc main_arg7) : FVec Ideal S512x2048 .f32) (ix2 k j) := by
  have e : @Eq (FVec Ideal S2048x512 .bf16) (V1 m ρ c main_v3)
      (truncf (F := Ideal) .bf16 (transpose S2048x512 [1, 0] (m ((c : Thread nD τ).loc main_arg7) : FVec Ideal S512x2048 .f32) transposes_S512x2048_S2048x512_1_0) bitsLt_bf16_f32) := by
    dsimp only [V1, W1, hostOps0]; after_results
  rw [e]
  exact transpose_ix2_apply _ _ j k

theorem host_beta (c : Dev nD) (k : Fin 512) (d : Fin 4096) :
    (V1 m ρ c main_v5 : FVec Ideal S512x4096 .bf16) (ix2 k d) = (m ((c : Thread nD τ).loc main_arg1) : FVec Ideal S4096x512 .f32) (ix2 d k) := by
  have e : @Eq (FVec Ideal S512x4096 .bf16) (V1 m ρ c main_v5)
      (truncf (F := Ideal) .bf16 (transpose S512x4096 [1, 0] (m ((c : Thread nD τ).loc main_arg1) : FVec Ideal S4096x512 .f32) transposes_S4096x512_S512x4096_1_0) bitsLt_bf16_f32) := by
    dsimp only [V1, W1, hostOps0]; after_results
  rw [e]
  exact transpose_ix2_apply _ _ k d

theorem host_mean (c : Dev nD) (d : Fin 4096) :
    (V1 m ρ c main_v6 : FVec Ideal S1x4096 .f32) (ix2 (0 : Fin 1) d) = (m ((c : Thread nD τ).loc main_arg2) : FVec Ideal S4096 .f32) (ix1 d) := by
  have e : (V1 m ρ c main_v6 : FVec Ideal S1x4096 .f32)
      = shapeCast S1x4096 (m ((c : Thread nD τ).loc main_arg2)) shapeCasts_S4096_S1x4096 := by
    dsimp only [V1, W1, hostOps0]; after_results; rfl
  rw [e]
  exact shapeCast_a_1a_apply _ _ (0 : Fin 1) d

theorem host_b1 (c : Dev nD) (j : Fin 2048) :
    (V1 m ρ c main_v7 : FVec Ideal S1x2048 .f32) (ix2 (0 : Fin 1) j) = (m ((c : Thread nD τ).loc main_arg4) : FVec Ideal S2048 .f32) (ix1 j) := by
  have e : (V1 m ρ c main_v7 : FVec Ideal S1x2048 .f32)
      = shapeCast S1x2048 (m ((c : Thread nD τ).loc main_arg4)) shapeCasts_S2048_S1x2048 := by
    dsimp only [V1, W1, hostOps0]; after_results; rfl
  rw [e]
  exact shapeCast_a_1a_apply _ _ (0 : Fin 1) j

theorem host_lnw (c : Dev nD) (j : Fin 2048) :
    (V1 m ρ c main_v8 : FVec Ideal S1x2048 .f32) (ix2 (0 : Fin 1) j) = (m ((c : Thread nD τ).loc main_arg5) : FVec Ideal S2048 .f32) (ix1 j) := by
  have e : (V1 m ρ c main_v8 : FVec Ideal S1x2048 .f32)
      = shapeCast S1x2048 (m ((c : Thread nD τ).loc main_arg5)) shapeCasts_S2048_S1x2048 := by
    dsimp only [V1, W1, hostOps0]; after_results; rfl
  rw [e]
  exact shapeCast_a_1a_apply _ _ (0 : Fin 1) j

theorem host_lnb (c : Dev nD) (j : Fin 2048) :
    (V1 m ρ c main_v9 : FVec Ideal S1x2048 .f32) (ix2 (0 : Fin 1) j) = (m ((c : Thread nD τ).loc main_arg6) : FVec Ideal S2048 .f32) (ix1 j) := by
  have e : (V1 m ρ c main_v9 : FVec Ideal S1x2048 .f32)
      = shapeCast S1x2048 (m ((c : Thread nD τ).loc main_arg6)) shapeCasts_S2048_S1x2048 := by
    dsimp only [V1, W1, hostOps0]; after_results; rfl
  rw [e]
  exact shapeCast_a_1a_apply _ _ (0 : Fin 1) j

theorem host_b2 (c : Dev nD) (k : Fin 512) :
    (V1 m ρ c main_v10 : FVec Ideal S1x512 .f32) (ix2 (0 : Fin 1) k) = (m ((c : Thread nD τ).loc main_arg8) : FVec Ideal S512 .f32) (ix1 k) := by
  have e : (V1 m ρ c main_v10 : FVec Ideal S1x512 .f32)
      = shapeCast S1x512 (m ((c : Thread nD τ).loc main_arg8)) shapeCasts_S512_S1x512 := by
    dsimp only [V1, W1, hostOps0]; after_results; rfl
  rw [e]
  exact shapeCast_a_1a_apply _ _ (0 : Fin 1) k

/-- The input array is as launched when region 0 is entered: no host operation writes it. -/
theorem host_x (c : Dev nD) : (V1 m ρ c main_arg0 : FVec Ideal S8192x4096 .f32) = m ((c : Thread nD τ).loc main_arg0) := by
  dsimp only [V1, W1, hostOps0]; after_results

/-! ## Region 0: the block written back, the cover, the array -/

/-- WHAT POINT `t` OF REGION 0 WRITES BACK is block `t` of the reference's logits. -/
theorem flushed0_eq (c : Dev nD) (t : Fin cfg0.N) :
    (dat0 (V1 m ρ) c).flushed 8 t = ((cfg0.win 8).blk t).view.read (Elt Ideal) (Q m c) := by
  show (cfg0.win 8).cut (grid0.coords t) ((dat0 (V1 m ρ) c).after 8 t) = _
  rw [after0_8]
  unfold out0_8
  rw [View.canon_unit_zero hz]
  simp only [View.ld_unit_zero (S := S256x4096) hz, View.ld_unit_zero (S := S1x4096) hz, View.ld_unit_zero (S := S4096x2048) hz,
    View.ld_unit_zero (S := S1x2048) hz, View.ld_unit_zero (S := S2048x512) hz, View.ld_unit_zero (S := S1x512) hz]
  have ht : t.val < 32 := by have := t.isLt; have hN : cfg0.N = 32 := N_0; omega
  obtain ⟨-, -, -, -, -, -, -, -, -, -, -, -, -, -, -, -, e0, e1⟩ := idx0 t
  funext y
  obtain ⟨p, k, rfl⟩ : ∃ (p : Fin 256) (k : Fin 512), y = ix2 p k := ⟨y 0, y 1, eq_ix2 y⟩
  rw [View.read_apply]
  refine Cert.Bridge.block_logits _ _ _ _ _ _ _ _ _ _ _ _ _ _ _ _ p k ⟨t.val * 256 + p.val, by have := p.isLt; omega⟩ _
    (fun d => (read0_0 (V1 m ρ) c t p d _ rfl).trans (congrFun (host_x m ρ c) _))
    (fun d => (read0_1 (V1 m ρ) c t 0 d).trans (host_mean m ρ c d))
    (fun j d => (read0_2 (V1 m ρ) c t d j).trans (host_w1 m ρ c d j))
    (fun j => (read0_3 (V1 m ρ) c t 0 j).trans (host_b1 m ρ c j))
    (fun j => (read0_4 (V1 m ρ) c t 0 j).trans (host_lnw m ρ c j))
    (fun j => (read0_5 (V1 m ρ) c t 0 j).trans (host_lnb m ρ c j))
    (fun k j => (read0_6 (V1 m ρ) c t j k).trans (host_w2 m ρ c j k))
    (fun k => (read0_7 (V1 m ρ) c t 0 k).trans (host_b2 m ρ c k))
    ?_ ?_
  · show win0_8.index t (0 : Fin 2) * 256 + 1 * p.val = t.val * 256 + p.val
    rw [e0]; omega
  · show win0_8.index t (1 : Fin 2) * 512 + 1 * k.val = k.val
    rw [e1]; omega

/-- An index of the logits array is in point `t`'s block iff each coordinate is in the block's range on its axis. -/
theorem mem_blk0 (t : Fin cfg0.N) (i : S8192x512.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v11).slice (win0_8.rect t)).set ↔ _
  rw [View.set_slice_whole, Rect.mem_set_unit]
  exact Iff.rfl

/-- THE LOGITS ARRAY AFTER REGION 0 is the reference's logits of the arguments. -/
theorem final0 (c : Dev nD) : (dat0 (V1 m ρ) c).arrAt 8 cfg0.N = Q m c :=
  (dat0 (V1 m ρ) c).arrAt_eq_of_cover 8 (Q m c) (fun t _ => flushed0_eq m ρ c t) fun i => by
    have h0 : (i 0).val < 8192 := (i 0).isLt
    have h1 : (i 1).val < 512 := (i 1).isLt
    have hq : (i 0).val / 256 < cfg0.N := by rw [show cfg0.N = 32 from N_0]; omega
    obtain ⟨-, -, -, -, -, -, -, -, -, -, -, -, -, -, -, -, e0, e1⟩ := idx0 ⟨(i 0).val / 256, hq⟩
    refine ⟨⟨(i 0).val / 256, hq⟩, flush0_8 _, ?_⟩
    rw [mem_blk0]
    intro a
    match a with
    | ⟨0, _⟩ =>
      show win0_8.index ⟨(i 0).val / 256, hq⟩ (0 : Fin 2) * 256 ≤ (i 0).val ∧ (i 0).val < win0_8.index ⟨(i 0).val / 256, hq⟩ (0 : Fin 2) * 256 + 256
      rw [e0]; show (i 0).val / 256 * 256 ≤ (i 0).val ∧ (i 0).val < (i 0).val / 256 * 256 + 256; omega
    | ⟨1, _⟩ =>
      show win0_8.index ⟨(i 0).val / 256, hq⟩ (1 : Fin 2) * 512 ≤ (i 1).val ∧ (i 1).val < win0_8.index ⟨(i 0).val / 256, hq⟩ (1 : Fin 2) * 512 + 512
      rw [e1]; omega

/-! ## Region 1 -/

section Reads1
variable (V : (c : Dev nD) → (b : Ref sig .tc) → Buf (Elt Ideal) ((c : Thread nD τ).loc b))

theorem read1_0 (c : Dev nD) (t : Fin cfg1.N) (p : Fin 256) (k : Fin 512) (b : Fin 8192) (hb : b.val = t.val * 256 + p.val) :
    (iblk1 V c 0 t : FVec Ideal S256x512 .f32) (ix2 p k) = (V c main_v11 : FVec Ideal S8192x512 .f32) (ix2 b k) := by
  obtain ⟨e0, e1, -⟩ := idx1 t
  unfold iblk1
  rw [View.read_apply]
  show V c main_v11 _ = V c main_v11 _
  refine congrArg (V c main_v11) (funext fun a => Fin.ext ?_)
  match a with
  | ⟨0, _⟩ => show win1_0.index t (0 : Fin 2) * 256 + 1 * p.val = b.val; rw [e0, hb]; omega
  | ⟨1, _⟩ => show win1_0.index t (1 : Fin 2) * 512 + 1 * k.val = k.val; rw [e1]; omega

theorem read1_1 (c : Dev nD) (t : Fin cfg1.N) (k : Fin 512) (d : Fin 4096) :
    (iblk1 V c 1 t : FVec Ideal S512x4096 .bf16) (ix2 k d) = (V c main_v5 : FVec Ideal S512x4096 .bf16) (ix2 k d) := by
  obtain ⟨-, -, e0, e1, -⟩ := idx1 t
  unfold iblk1
  rw [View.read_apply]
  show V c main_v5 _ = V c main_v5 _
  refine congrArg (V c main_v5) (funext fun a => Fin.ext ?_)
  match a with
  | ⟨0, _⟩ => show win1_1.index t (0 : Fin 2) * 512 + 1 * k.val = k.val; rw [e0]; omega
  | ⟨1, _⟩ => show win1_1.index t (1 : Fin 2) * 4096 + 1 * d.val = d.val; rw [e1]; omega

end Reads1

/-- When region 1 is entered the logits array holds what region 0 left: the reference's logits. -/
theorem entry1_q (c : Dev nD) : (V2 m ρ c main_v11 : FVec Ideal S8192x512 .f32) = Q m c :=
  (W2_arr m ρ c 8).trans (final0 m ρ c)

/-- When region 1 is entered the transposed decoder matrix is as the host operations left it. -/
theorem entry1_beta (c : Dev nD) (k : Fin 512) (d : Fin 4096) :
    (V2 m ρ c main_v5 : FVec Ideal S512x4096 .bf16) (ix2 k d) = (m ((c : Thread nD τ).loc main_arg1) : FVec Ideal S4096x512 .f32) (ix2 d k) :=
  (congrFun (W2_of_ne m ρ c main_v5 (by decide)) (ix2 k d)).trans (host_beta m ρ c k d)

/-- WHAT POINT `t` OF REGION 1 WRITES BACK is block `t` of the reference's reconstruction. -/
theorem flushed1_eq (c : Dev nD) (t : Fin cfg1.N) :
    (dat1 (V2 m ρ) c).flushed 2 t = ((cfg1.win 2).blk t).view.read (Elt Ideal) (Z m c) := by
  show (cfg1.win 2).cut (grid1.coords t) ((dat1 (V2 m ρ) c).after 2 t) = _
  rw [after1_2]
  unfold out1_2
  rw [View.canon_unit_zero hz]
  simp only [View.ld_unit_zero (S := S256x512) hz, View.ld_unit_zero (S := S512x4096) hz]
  have ht : t.val < 32 := by have := t.isLt; have hN : cfg1.N = 32 := N_1; omega
  obtain ⟨-, -, -, -, e0, e1⟩ := idx1 t
  funext y
  obtain ⟨p, d, rfl⟩ : ∃ (p : Fin 256) (d : Fin 4096), y = ix2 p d := ⟨y 0, y 1, eq_ix2 y⟩
  rw [View.read_apply]
  refine Cert.Bridge.block_recon _ _ _ _ _ _ _ _ _ _ _ p d ⟨t.val * 256 + p.val, by have := p.isLt; omega⟩ _
    (fun k => (read1_0 (V2 m ρ) c t p k _ rfl).trans (congrFun (entry1_q m ρ c) _))
    (fun d k => (read1_1 (V2 m ρ) c t k d).trans (entry1_beta m ρ c k d))
    ?_ ?_
  · show win1_2.index t (0 : Fin 2) * 256 + 1 * p.val = t.val * 256 + p.val
    rw [e0]; omega
  · show win1_2.index t (1 : Fin 2) * 4096 + 1 * d.val = d.val
    rw [e1]; omega

theorem mem_blk1 (t : Fin cfg1.N) (i : S8192x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v12).slice (win1_2.rect t)).set ↔ _
  rw [View.set_slice_whole, Rect.mem_set_unit]
  exact Iff.rfl

/-- THE RECONSTRUCTION ARRAY AFTER REGION 1 is the reference's reconstruction of the arguments. -/
theorem final1 (c : Dev nD) : (dat1 (V2 m ρ) c).arrAt 2 cfg1.N = Z m c :=
  (dat1 (V2 m ρ) c).arrAt_eq_of_cover 2 (Z m c) (fun t _ => flushed1_eq m ρ c t) fun i => by
    have h0 : (i 0).val < 8192 := (i 0).isLt
    have h1 : (i 1).val < 4096 := (i 1).isLt
    have hq : (i 0).val / 256 < cfg1.N := by rw [show cfg1.N = 32 from N_1]; omega
    obtain ⟨-, -, -, -, e0, e1⟩ := idx1 ⟨(i 0).val / 256, hq⟩
    refine ⟨⟨(i 0).val / 256, hq⟩, flush1_2 _, ?_⟩
    rw [mem_blk1]
    intro a
    match a with
    | ⟨0, _⟩ =>
      show win1_2.index ⟨(i 0).val / 256, hq⟩ (0 : Fin 2) * 256 ≤ (i 0).val ∧ (i 0).val < win1_2.index ⟨(i 0).val / 256, hq⟩ (0 : Fin 2) * 256 + 256
      rw [e0]; show (i 0).val / 256 * 256 ≤ (i 0).val ∧ (i 0).val < (i 0).val / 256 * 256 + 256; omega
    | ⟨1, _⟩ =>
      show win1_2.index ⟨(i 0).val / 256, hq⟩ (1 : Fin 2) * 4096 ≤ (i 1).val ∧ (i 1).val < win1_2.index ⟨(i 0).val / 256, hq⟩ (1 : Fin 2) * 4096 + 4096
      rw [e1]; omega

/-! ## The two result buffers at the end of @main -/

/-- The reconstruction buffer at the end: region 1's output array. -/
theorem end_recon (c : Dev nD) : W3 m ρ c (Proc.devRef .tc main_v12) = Z m c :=
  (W3_arr m ρ c 2).trans (final1 m ρ c)

/-- The logits buffer at the end: an input of region 1, so still what region 0 left. -/
theorem end_logits (c : Dev nD) : W3 m ρ c (Proc.devRef .tc main_v11) = Q m c :=
  (W3_arr m ρ c 0).trans ((((dat1 (V2 m ρ) c).arrAt_in 0 rfl _).trans (A_eq1 (V2 m ρ) c 0)).trans (entry1_q m ρ c))

end Cert.KernelIdeal.Blocks

end
-- ==== Proof.Run.lean ====
/-
  The idealized kernel program's run, with its results in the post.

  @main is three segments — the host operations before the first call, then the two kernel regions — and the
  library's theorem for such a list says every weakly fair execution terminates, nothing faulting, in a state whose
  every unscoped TensorCore buffer holds the last boundary's contents `W3`. Reading that state at the two result
  buffers as well as at the nine arguments gives the run the value claim needs: the logits buffer and the
  reconstruction buffer end at `W3` there, and the arguments end as launched.
-/
import proofs.«118280_j44951127720598_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the two result buffers end at the last
    boundary's contents and the argument arrays end as launched. -/
theorem run_results : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       h c _ (mem_uc main_v12 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.ValueRun

end
-- ==== Proof.lean ====
/-
  The kernel program and its reference compute the same two arrays over the extended reals.

  The program: for a batch `x` of 8192 rows of length 4096, centre each row by `compound_mean`, apply a first
  affine layer (`W1`, `b1`) to 2048 hidden units, normalise each hidden row (mean and variance over its 2048
  entries, `rsqrt (variance + 1e-5)`, scale `ln_w`, shift `ln_b`), clamp at zero, apply a second affine layer
  (`W2`, `b2`) to 512 logits, and reconstruct the row as the logistic function of the logits against `beta`.
  The results are the logits (three times) and the reconstruction.

  The kernel program does this in two kernel launches, each over 32 blocks of 256 rows, on weights the host has
  transposed beforehand; the reference does it on the whole batch with three contractions. At the ideal values a
  change of float format is the identity, a matrix product into a zero accumulator and a host contraction are both
  the plain sum over the contracted axis, a lane sum and a host sum from zero are both the plain sum, and the
  kernel's one logistic operation is by definition `1 / (1 + exp (-z))`, which is what the reference spells out.
  So row by row both sides are ONE expression (Proof/RowSpec.lean), the blocks tile the arrays (Proof/Blocks.lean),
  and the claim follows with no appeal to the finiteness of the inputs.

  The three frames are the generated ones (the reference's is its generated run with the results dropped); the
  idealization rewrote nothing, so `preserves` is `True`.
-/
import proofs.«118280_j44951127720598_1_alg».proof.Defs
import proofs.«118280_j44951127720598_1_alg».proof.Proof.Gen.Kernel
import proofs.«118280_j44951127720598_1_alg».proof.Proof.Gen.Kernel.Skeleton
import proofs.«118280_j44951127720598_1_alg».proof.Proof.Gen.Kernel.Launch
import proofs.«118280_j44951127720598_1_alg».proof.Proof.Gen.Kernel.Points
import proofs.«118280_j44951127720598_1_alg».proof.Proof.Gen.Kernel.Frame
import proofs.«118280_j44951127720598_1_alg».proof.Proof.Gen.KernelIdeal
import proofs.«118280_j44951127720598_1_alg».proof.Proof.Gen.KernelIdeal.Skeleton
import proofs.«118280_j44951127720598_1_alg».proof.Proof.Gen.KernelIdeal.Launch
import proofs.«118280_j44951127720598_1_alg».proof.Proof.Gen.KernelIdeal.Points
import proofs.«118280_j44951127720598_1_alg».proof.Proof.Gen.KernelIdeal.Frame
import proofs.«118280_j44951127720598_1_alg».proof.Proof.Gen.ReferenceIdeal
import proofs.«118280_j44951127720598_1_alg».proof.Proof.Gen.Pre_finite_inputs
import proofs.«118280_j44951127720598_1_alg».proof.Proof.Gen.ReferenceIdeal.Run
import proofs.«118280_j44951127720598_1_alg».proof.Proof.Gen.ReferenceIdeal.Read
import proofs.«118280_j44951127720598_1_alg».proof.Proof.Blocks
import proofs.«118280_j44951127720598_1_alg».proof.Proof.Run
import Idealize.ShloMosaic.Adequacy
import Idealize.ShloMosaic.Init

noncomputable section

namespace Cert.Proof

open Idealize.ShloMosaic Idealize.SL.Sem

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- The ideal pass rewrote no operation. -/
theorem preserves : Cert.preserves_Kernel_KernelIdeal := trivial

/-! ## The value claim -/

/-- Both programs, run from memories that agree on the arguments, end with the logits buffer at the reference's
    logits of the arguments and the reconstruction buffer at the reference's reconstruction of them. -/
theorem algebraic : Cert.algebraic_KernelIdeal_ReferenceIdeal := by
  intro m ρ m' ρ' _ hagree
  refine ⟨fun c => Cert.KernelIdeal.Blocks.Q m c, fun c => Cert.KernelIdeal.Blocks.Z m c,
    fun c => Cert.KernelIdeal.Blocks.Q m c, fun c => Cert.KernelIdeal.Blocks.Q m c, ?_, ?_⟩
  · refine (θ_run Cert.KernelIdeal.defs _ _).mono (fun r h c => ?_)
      (Cert.KernelIdeal.ValueRun.run_results (F := Ideal) m ρ)
    obtain ⟨hq, hz, hargs⟩ := h c
    exact ⟨hq.trans (Cert.KernelIdeal.Blocks.end_logits m ρ c), hz.trans (Cert.KernelIdeal.Blocks.end_recon m ρ c),
      hq.trans (Cert.KernelIdeal.Blocks.end_logits m ρ c), hq.trans (Cert.KernelIdeal.Blocks.end_logits m ρ c), hargs⟩
  · refine (θ_run Cert.ReferenceIdeal.defs _ _).mono (fun r h c => ?_)
      (Cert.ReferenceIdeal.Value.run (F := Ideal) m' ρ')
    obtain ⟨hq, hz, hq2, hq3, hargs⟩ := h c
    obtain ⟨e0, e1, e2, e3, e4, e5, e6, e7, e8⟩ := hagree c
    have eq : Cert.ReferenceIdeal.Value.res_main_v35 m' c = Cert.KernelIdeal.Blocks.Q m c := by
      rw [Cert.ReferenceIdeal.Read.val_main_v35_eq, e0, e2, e3, e4, e5, e6, e7, e8]
      rfl
    have ez : Cert.ReferenceIdeal.Value.res_main_v42 m' c = Cert.KernelIdeal.Blocks.Z m c := by
      rw [Cert.ReferenceIdeal.Read.val_main_v42_eq, e0, e1, e2, e3, e4, e5, e6, e7, e8]
      rfl
    exact ⟨hq.trans eq, hz.trans ez, hq2.trans eq, hq3.trans eq, hargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
